-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384x1 : Shape := ⟨2, ![16384, 1]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x1 : S_.BroadcastsInDim S16384x1 (![] : Fin 0 → Fin S16384x1.rank)
  reducesTo_S16384x1_S_d0_1 : S16384x1.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : IVec S16384x4096 32) (main_arg2 : FVec F S16384x1 .f32) (main_arg3 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x1 .f32 := Host.absf main_arg2
  let main_cst_0 : FVec F S_ .f32 := constant S_ .f32 0x7F800000#32
  let main_v5 : FVec F S16384x1 .f32 := broadcastInDim S16384x1 ![] bcast_S_S16384x1 main_cst_0
  let main_v6 : IVec S16384x1 1 := cmpf .olt main_v4 main_v5
  let main_c_1 : IVec S_ 1 := constantI S_ 1 1#1
  let main_v7 : IVec S_ 1 := (fun x v => Host.reduce IntOp.andi x v reducesTo_S16384x1_S_d0_1 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S16384x4096 : Shape := ⟨2, ![16384, 4096]⟩
abbrev S16384x1 : Shape := ⟨2, ![16384, 1]⟩
abbrev S16384 : Shape := ⟨1, ![16384]⟩
abbrev S8192x4096 : Shape := ⟨2, ![8192, 4096]⟩
abbrev S8192x16384 : Shape := ⟨2, ![8192, 16384]⟩
abbrev S256x4096 : Shape := ⟨2, ![256, 4096]⟩
abbrev S512x4096 : Shape := ⟨2, ![512, 4096]⟩
abbrev S512x1 : Shape := ⟨2, ![512, 1]⟩
abbrev S512 : Shape := ⟨1, ![512]⟩
abbrev S256x512 : Shape := ⟨2, ![256, 512]⟩
abbrev S1x512 : Shape := ⟨2, ![1, 512]⟩
abbrev S4x2048x16384 : Shape := ⟨3, ![4, 2048, 16384]⟩

abbrev nBuf : Space → Nat
  | .hbm => 7
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384x1, .f32⟩
  | .hbm, ⟨3, _⟩ => ⟨S16384, .f32⟩
  | .hbm, ⟨4, _⟩ => ⟨S8192x4096, .f32⟩
  | .hbm, ⟨5, _⟩ => ⟨S8192x16384, .f32⟩
  | .hbm, ⟨6, _⟩ => ⟨S4x2048x16384, .f32⟩
  | .local _ .vmem, ⟨0, _⟩ => ⟨S256x4096, .f32⟩
  | .local _ .vmem, ⟨1, _⟩ => ⟨S256x4096, .f32⟩
  | .local _ .vmem, ⟨2, _⟩ => ⟨S512x4096, .i32⟩
  | .local _ .vmem, ⟨3, _⟩ => ⟨S512x4096, .i32⟩
  | .local _ .vmem, ⟨4, _⟩ => ⟨S512x1, .f32⟩
  | .local _ .vmem, ⟨5, _⟩ => ⟨S512x1, .f32⟩
  | .local _ .vmem, ⟨6, _⟩ => ⟨S512, .f32⟩
  | .local _ .vmem, ⟨7, _⟩ => ⟨S512, .f32⟩
  | .local _ .vmem, ⟨8, _⟩ => ⟨S256x512, .f32⟩
  | .local _ .vmem, ⟨9, _⟩ => ⟨S256x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  inb_S512x1_S512x1_0_0 : ∀ a, (![0, 0] : Fin 2 → Nat) a + S512x1.size a ≤ S512x1.size a
  h_S512x1 : 0 < S512x1.numel
  broadcasts_S512x1_S512x4096 : S512x1.Broadcasts S512x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  shapeCasts_S8192x16384_S4x2048x16384 : S8192x16384.ShapeCasts S4x2048x16384
  dot_S256x4096_S512x4096_S256x512_1_1_0_0_n_n_wf : DotDims.WF S256x4096 S512x4096 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .i32 = 32 ∨ (Rect.block (s := S16384x4096) S512x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .f32 = 32 ∨ (Rect.block (s := S16384x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S16384.size a
  hwx0_3 : ∀ i : grid0.Coords, EltTy.bits .f32 = 32 ∨ (Rect.block (s := S16384) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S8192x16384.size a
  hwx0_4 : ∀ i : grid0.Coords, EltTy.bits .f32 = 32 ∨ (Rect.block (s := S8192x16384) S256x512.size (cc0_transform_4 i) (hinb0_4 i)).WholeWords (EltTy.packing .f32)

variable [Facts₀]

def dot_S256x4096_S512x4096_S256x512_1_1_0_0_n_n : DotDims S256x4096 S512x4096 S256x512 where
  lhsContracting := [1]
  rhsContracting := [1]
  lhsNonContracting := [0]
  rhsNonContracting := [0]
  lhsBatch := []
  rhsBatch := []
  wf := dot_S256x4096_S512x4096_S256x512_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384x1 : Shape := ⟨2, ![16384, 1]⟩
abbrev S16384 : Shape := ⟨1, ![16384]⟩
abbrev S4x2048x16384 : Shape := ⟨3, ![4, 2048, 16384]⟩
abbrev S1x1x16384 : Shape := ⟨3, ![1, 1, 16384]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384x1, .f32⟩
  | .hbm, ⟨3, _⟩ => ⟨S16384, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S4x2048x16384, .f32⟩
  | .hbm, ⟨8, _⟩ => ⟨S1x1x16384, .f32⟩
  | .hbm, ⟨9, _⟩ => ⟨S4x2048x16384, .f32⟩
  | .hbm, ⟨10, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S16384x1_S16384x4096_0_1 : S16384x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.KernelTile.lean ====
/-
  One tile of the kernel's result, entry by entry.

  At a grid point the body holds a tile `xt` of 256 activation rows (all 4096 features), a tile `wt` of 512 rows of
  the quantised weight, the 512 scales `st` of those rows as a column, and their 512 biases `bt`.  It dequantises the
  weight tile (integer to float, times the row's scale), contracts the activations' and the weights' feature axes
  against each other into a zero accumulator, and adds the bias along the rows.  Read at entry (p, q) of the 256 × 512
  tile over the extended reals — where narrowing a float's format changes nothing — that is

      Σ_k xt[p, k] · (float(wt[q, k]) · st[q, 0])  +  bt[q].
-/
import proofs.«162065_j4492535791711_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-! ## The contraction's operand indices, coordinate by coordinate

The product contracts axis 1 of the activations' tile with axis 1 of the weights' tile: at output entry `j` and
contraction position `κ` the left operand is read at (j 0, κ) and the right one at (j 1, κ). -/

theorem lhs_row (j : S256x512.Idx) (κ : dot_S256x4096_S512x4096_S256x512_1_1_0_0_n_n.contr.Idx) :
    (dot_S256x4096_S512x4096_S256x512_1_1_0_0_n_n.lhsIdx j κ 0).val = (j 0).val := by
  unfold DotDims.lhsIdx
  rw [dif_neg (show ¬(0 : Fin S256x4096.rank) ∈ dot_S256x4096_S512x4096_S256x512_1_1_0_0_n_n.lhsBatch by decide),
    dif_pos (show (0 : Fin S256x4096.rank) ∈ dot_S256x4096_S512x4096_S256x512_1_1_0_0_n_n.lhsNonContracting by decide)]
  rfl

theorem lhs_feature (j : S256x512.Idx) (κ : dot_S256x4096_S512x4096_S256x512_1_1_0_0_n_n.contr.Idx) :
    (dot_S256x4096_S512x4096_S256x512_1_1_0_0_n_n.lhsIdx j κ 1).val = (κ ⟨0, by decide⟩).val :=
  dot_S256x4096_S512x4096_S256x512_1_1_0_0_n_n.lhsIdx_val_of_single rfl j κ

theorem rhs_row (j : S256x512.Idx) (κ : dot_S256x4096_S512x4096_S256x512_1_1_0_0_n_n.contr.Idx) :
    (dot_S256x4096_S512x4096_S256x512_1_1_0_0_n_n.rhsIdx j κ 0).val = (j 1).val := by
  unfold DotDims.rhsIdx
  rw [dif_neg (show ¬(0 : Fin S512x4096.rank) ∈ dot_S256x4096_S512x4096_S256x512_1_1_0_0_n_n.rhsBatch by decide),
    dif_pos (show (0 : Fin S512x4096.rank) ∈ dot_S256x4096_S512x4096_S256x512_1_1_0_0_n_n.rhsNonContracting by decide)]
  rfl

theorem rhs_feature (j : S256x512.Idx) (κ : dot_S256x4096_S512x4096_S256x512_1_1_0_0_n_n.contr.Idx) :
    (dot_S256x4096_S512x4096_S256x512_1_1_0_0_n_n.rhsIdx j κ 1).val = (κ ⟨0, by decide⟩).val :=
  dot_S256x4096_S512x4096_S256x512_1_1_0_0_n_n.rhsIdx_val_of_single rfl j κ

/-- The product into the zero accumulator, at entry (p, q): the sum over the 4096 features of the left tile's row p
    against the right tile's row q. -/
theorem product_apply (L : FVec Ideal S256x4096 .bf16) (R : FVec Ideal S512x4096 .bf16) (p : Fin 256) (q : Fin 512) :
    matmul dot_S256x4096_S512x4096_S256x512_1_1_0_0_n_n none L R (constant (F := Ideal) S256x512 .f32 0x00000000#32) (ix2 p q)
      = ∑ k : Fin 4096, L (ix2 p k) * R (ix2 q k) := by
  simp only [matmul]
  rw [Ideal.matmul_constant_zero_apply,
    ← Equiv.sum_comp (contrEquiv1 dot_S256x4096_S512x4096_S256x512_1_1_0_0_n_n 4096 rfl rfl).symm]
  refine Finset.sum_congr rfl fun k _ => ?_
  have hk := contrEquiv1_symm_val dot_S256x4096_S512x4096_S256x512_1_1_0_0_n_n 4096 rfl rfl k
  have el : dot_S256x4096_S512x4096_S256x512_1_1_0_0_n_n.lhsIdx (ix2 p q)
      ((contrEquiv1 dot_S256x4096_S512x4096_S256x512_1_1_0_0_n_n 4096 rfl rfl).symm k) = ix2 p k :=
    funext fun a => Fin.ext (by
      match a with
      | ⟨0, _⟩ => exact lhs_row _ _
      | ⟨1, _⟩ => exact (lhs_feature _ _).trans hk)
  have er : dot_S256x4096_S512x4096_S256x512_1_1_0_0_n_n.rhsIdx (ix2 p q)
      ((contrEquiv1 dot_S256x4096_S512x4096_S256x512_1_1_0_0_n_n 4096 rfl rfl).symm k) = ix2 q k :=
    funext fun a => Fin.ext (by
      match a with
      | ⟨0, _⟩ => exact rhs_row _ _
      | ⟨1, _⟩ => exact (rhs_feature _ _).trans hk)
  rw [el, er]

/-! ## The layout steps of the body, at an entry -/

/-- The scales' column spread along the features: entry (q, k) is the scale of row q. -/
theorem scale_spread (st : FVec Ideal S512x1 .f32) (q : Fin 512) (k : Fin 4096) :
    broadcastTo S512x4096 st broadcasts_S512x1_S512x4096 (ix2 q k) = st (ix2 q (0 : Fin 1)) :=
  broadcastTo_apply st broadcasts_S512x1_S512x4096 (ix2 q k) (ix2 q (0 : Fin 1)) (fun a => match a with
    | ⟨0, _⟩ => by show q.val = if (512 : Nat) = 1 then 0 else q.val; rw [if_neg (by decide)]
    | ⟨1, _⟩ => by show 0 = if (1 : Nat) = 1 then 0 else k.val; rw [if_pos rfl])

/-- The biases laid as one row and spread along the 256 rows: entry (p, q) is the bias of column q. -/
theorem bias_spread (bt : FVec Ideal S512 .f32) (p : Fin 256) (q : Fin 512) :
    broadcastTo S256x512 (shapeCast S1x512 bt shapeCasts_S512_S1x512) broadcasts_S1x512_S256x512 (ix2 p q) = bt (ix1 q) := by
  refine (broadcastTo_apply _ broadcasts_S1x512_S256x512 (ix2 p q) (ix2 (0 : Fin 1) q) (fun a => match a with
    | ⟨0, _⟩ => by show 0 = if (1 : Nat) = 1 then 0 else p.val; rw [if_pos rfl]
    | ⟨1, _⟩ => by show q.val = if (512 : Nat) = 1 then 0 else q.val; rw [if_neg (by decide)])).trans ?_
  exact shapeCast_apply bt shapeCasts_S512_S1x512 (ix2 (0 : Fin 1) q) (ix1 q)
    (by rw [Shape.rowMajor_val_one, Shape.rowMajor_val_two]; show q.val = 0 * 512 + q.val; omega)

/-! ## The tile -/

/-- What the body stores, at entry (p, q) of the tile: row p's activations against row q's dequantised weights,
    summed over the features, plus bias q. -/
theorem tile_apply (wt : IVec S512x4096 32) (st : FVec Ideal S512x1 .f32) (xt : FVec Ideal S256x4096 .f32)
    (bt : FVec Ideal S512 .f32) (p : Fin 256) (q : Fin 512) :
    k0_pay1 (F := Ideal) wt st xt bt (ix2 p q)
      = (∑ k : Fin 4096, xt (ix2 p k) * (FloatOps.sitofp (F := Ideal) .f32 (wt (ix2 q k)) * st (ix2 q (0 : Fin 1))))
        + bt (ix1 q) := by
  unfold k0_pay1
  rw [addf_apply, product_apply, bias_spread]
  refine congrArg (· + bt (ix1 q)) (Finset.sum_congr rfl fun k _ => ?_)
  rw [truncf_apply, truncf_apply, shapeCast_self, mulf_apply, sitofp_apply, scale_spread]

end Cert.KernelIdeal.Tile

end
-- ==== Proof.Projection.lean ====
/-
  The mathematics of the certificate, with no program in sight.

  A weight matrix is stored as integers `Wq[o, k]` with one scale `s[o, 0]` per output channel `o`; the dequantised
  weight is `float(Wq[o, k]) · s[o, 0]`.  A row `ξ` of activations (4096 numbers) is projected onto channel `o` as

      entry ξ o  =  Σ_k ξ[k] · (float(Wq[o, k]) · s[o, 0])  +  b[o]

  over the extended reals.  `rows2` is this for a matrix of 8192 rows, `rows3` for the same rows arranged as a
  [4, 2048, ·] array; the two arrangements are one another's row-major reshapes (`reshape_rows2`): row `(p, q)` of
  the three-axis array is row `p · 2048 + q` of the matrix, on the input side and on the output side alike.
  Nothing here uses an algebraic law of the extended reals: both programs compute the very same sum of products,
  term by term, and only the arrangement of the rows differs.
-/
import Idealize.ShloMosaic.Lib.ValueIdx
import Idealize.ShloMosaic.Lib.Pipeline.Value
import Idealize.ShloMosaic.PureOps.Ideal.Laws

noncomputable section

namespace Cert.Projection

open Idealize.ShloMosaic Idealize.ShloMosaic.ValueIdx

/-- The activations as [batch, position, feature] and as a matrix of rows; the quantised weight, its per-channel
    scale and the bias; the result as a matrix of rows and as [batch, position, channel]. -/
abbrev Sx3 : Shape := ⟨3, ![4, 2048, 4096]⟩
abbrev Sx2 : Shape := ⟨2, ![8192, 4096]⟩
abbrev Sw : Shape := ⟨2, ![16384, 4096]⟩
abbrev Ss : Shape := ⟨2, ![16384, 1]⟩
abbrev Sb : Shape := ⟨1, ![16384]⟩
abbrev So2 : Shape := ⟨2, ![8192, 16384]⟩
abbrev So3 : Shape := ⟨3, ![4, 2048, 16384]⟩

/-- One row `ξ` projected onto output channel `o`: the sum over the features of the activation times the dequantised
    weight, plus the channel's bias. -/
def entry (ξ : Fin 4096 → EReal) (Wq : IVec Sw 32) (sc : FVec Ideal Ss .f32) (b : FVec Ideal Sb .f32) (o : Fin 16384) : EReal :=
  (∑ k : Fin 4096, ξ k * (FloatOps.sitofp (F := Ideal) .f32 (Wq (ix2 o k)) * sc (ix2 o (0 : Fin 1)))) + b (ix1 o)

/-- The projection of a matrix of 8192 rows: entry (r, o) is row r projected onto channel o. -/
def rows2 (X : FVec Ideal Sx2 .f32) (Wq : IVec Sw 32) (sc : FVec Ideal Ss .f32) (b : FVec Ideal Sb .f32) : FVec Ideal So2 .f32 :=
  fun j => entry (fun k => X (ix2 (j 0) k)) Wq sc b (j 1)

/-- The projection of a [4, 2048, 4096] array: entry (p, q, o) is row (p, q) projected onto channel o. -/
def rows3 (x : FVec Ideal Sx3 .f32) (Wq : IVec Sw 32) (sc : FVec Ideal Ss .f32) (b : FVec Ideal Sb .f32) : FVec Ideal So3 .f32 :=
  fun i => entry (fun k => x (ix3 (i 0) (i 1) k)) Wq sc b (i 2)

/-- Entry (r, o) of the projected matrix from a row and a channel given piece by piece: if `ξ` is row r of the matrix,
    `ω` the quantised weights of channel o, `σ` its scale and `β` its bias, the sum of products plus the bias is the entry. -/
theorem rows2_of_pieces (X : FVec Ideal Sx2 .f32) (Wq : IVec Sw 32) (sc : FVec Ideal Ss .f32) (b : FVec Ideal Sb .f32)
    (ξ : Fin 4096 → EReal) (ω : Fin 4096 → BitVec 32) (σ β : EReal) (r : Fin 8192) (o : Fin 16384)
    (hξ : ∀ k, ξ k = X (ix2 r k)) (hω : ∀ k, ω k = Wq (ix2 o k)) (hσ : σ = sc (ix2 o (0 : Fin 1))) (hβ : β = b (ix1 o)) :
    (∑ k : Fin 4096, ξ k * (FloatOps.sitofp (F := Ideal) .f32 (ω k) * σ)) + β = rows2 X Wq sc b (ix2 r o) := by
  obtain rfl : ξ = fun k => X (ix2 r k) := funext hξ
  obtain rfl : ω = fun k => Wq (ix2 o k) := funext hω
  subst hσ hβ
  rfl

/-- Flattening the rows, projecting the matrix, and unflattening the result is the projection of the three-axis
    array: row (p, q) is row p · 2048 + q, before and after. -/
theorem reshape_rows2 (x : FVec Ideal Sx3 .f32) (Wq : IVec Sw 32) (sc : FVec Ideal Ss .f32) (b : FVec Ideal Sb .f32)
    (h : Sx3.ShapeCasts Sx2) (h' : So2.ShapeCasts So3) :
    shapeCast So3 (rows2 (shapeCast Sx2 x h) Wq sc b) h' = rows3 x Wq sc b := by
  funext i
  have hp : (i 0).val < 4 := (i 0).isLt
  have hq : (i 1).val < 2048 := (i 1).isLt
  refine (shapeCast_apply _ h' i (ix2 (⟨(i 0).val * 2048 + (i 1).val, by omega⟩ : Fin 8192) (i 2)) ?_).trans ?_
  · rw [Shape.rowMajor_val_two, Shape.rowMajor_val_three]; rfl
  · show entry (fun k => shapeCast Sx2 x h (ix2 (⟨(i 0).val * 2048 + (i 1).val, by omega⟩ : Fin 8192) k)) Wq sc b (i 2)
      = entry (fun k => x (ix3 (i 0) (i 1) k)) Wq sc b (i 2)
    refine congrArg (fun f => entry f Wq sc b (i 2)) (funext fun k => ?_)
    exact shapeCast_apply x h _ (ix3 (i 0) (i 1) k) (by rw [Shape.rowMajor_val_three, Shape.rowMajor_val_two]; rfl)

end Cert.Projection

end
-- ==== Proof.KernelArray.lean ====
/-
  From tiles to the whole result.

  The kernel runs over a 32 × 32 grid of points; point t = 32·n + r works on the activations' block of rows
  [256·r, 256·r + 256) and the weight's, scale's and bias's block of channels [512·n, 512·n + 512), and writes the
  256 × 512 tile of the result at block row r, block column n.  Every entry (row, channel) of the 8192 × 16384 result
  lies in exactly the tile of the point with r = row / 256 and n = channel / 512, and there it is that row of the
  activations projected onto that channel.  So the result matrix is the projection of the matrix of rows.

  Around the kernel the program only rearranges: before it, the [4, 2048, 4096] activations are flattened to the
  8192 rows; after it, the 8192 result rows are unflattened to [4, 2048, 16384].
-/
import proofs.«162065_j4492535791711_1_alg».proof.Proof.Gen.KernelIdeal.Frame
import proofs.«162065_j4492535791711_1_alg».proof.Proof.KernelTile
import proofs.«162065_j4492535791711_1_alg».proof.Proof.Projection
import Idealize.ShloMosaic.Lib.Pipeline.Value
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

theorem zero_offsets2 : (![0, 0] : Fin 2 → Nat) = fun _ => 0 := funext fun a => by fin_cases a <;> rfl
theorem zero_offsets1 : (![0] : Fin 1 → Nat) = fun _ => 0 := funext fun a => by fin_cases a <;> rfl

/-! ## Which blocks a point works on -/

/-- Point t = 32·n + r: the result's tile is at block (r, n); the activations' block is block row r; the weight's,
    the scale's and the bias's blocks are block n. Decided over the 1024 points. -/
theorem blocks_at : ∀ t : Fin cfg0.N,
    win0_4.index t (0 : Fin 2) = t.val % 32 ∧ win0_4.index t (1 : Fin 2) = t.val / 32
    ∧ win0_0.index t (0 : Fin 2) = t.val % 32 ∧ win0_0.index t (1 : Fin 2) = 0
    ∧ win0_1.index t (0 : Fin 2) = t.val / 32 ∧ win0_1.index t (1 : Fin 2) = 0
    ∧ win0_2.index t (0 : Fin 2) = t.val / 32 ∧ win0_2.index t (1 : Fin 2) = 0
    ∧ win0_3.index t (0 : Fin 1) = t.val / 32 :=
  (by decide +kernel : ∀ t : Fin grid0.N, _)

/-! ## The input blocks, read where the arrays hold them -/

/-- The activations' block at point t, entry y: row 256·(t mod 32) + y₀ of the matrix of rows, feature y₁. -/
theorem x_block (c : Dev nD) (t : Fin cfg0.N) (y : S256x4096.Idx) (i : S8192x4096.Idx)
    (h0 : (i 0).val = t.val % 32 * 256 + (y 0).val) (h1 : (i 1).val = (y 1).val) :
    iblk m c 0 t y = V m c main_v0 i := by
  obtain ⟨-, -, e0, e1, -⟩ := blocks_at t
  show V m c main_v0 (((cfg0.win 0).blk t).view.emb y) = V m c main_v0 i
  refine congrArg _ (funext fun a => Fin.ext ?_)
  match a with
  | ⟨0, _⟩ => show win0_0.index t (0 : Fin 2) * 256 + 1 * (y 0).val = (i 0).val; omega
  | ⟨1, _⟩ => show win0_0.index t (1 : Fin 2) * 4096 + 1 * (y 1).val = (i 1).val; omega

/-- The weight's block at point t, entry y: channel 512·(t / 32) + y₀, feature y₁. -/
theorem w_block (c : Dev nD) (t : Fin cfg0.N) (y : S512x4096.Idx) (i : S16384x4096.Idx)
    (h0 : (i 0).val = t.val / 32 * 512 + (y 0).val) (h1 : (i 1).val = (y 1).val) :
    iblk m c 1 t y = V m c main_arg1 i := by
  obtain ⟨-, -, -, -, e0, e1, -⟩ := blocks_at t
  show V m c main_arg1 (((cfg0.win 1).blk t).view.emb y) = V m c main_arg1 i
  refine congrArg _ (funext fun a => Fin.ext ?_)
  match a with
  | ⟨0, _⟩ => show win0_1.index t (0 : Fin 2) * 512 + 1 * (y 0).val = (i 0).val; omega
  | ⟨1, _⟩ => show win0_1.index t (1 : Fin 2) * 4096 + 1 * (y 1).val = (i 1).val; omega

/-- The scale's block at point t, entry y: channel 512·(t / 32) + y₀, the one column. -/
theorem s_block (c : Dev nD) (t : Fin cfg0.N) (y : S512x1.Idx) (i : S16384x1.Idx)
    (h0 : (i 0).val = t.val / 32 * 512 + (y 0).val) (h1 : (i 1).val = (y 1).val) :
    iblk m c 2 t y = V m c main_arg2 i := by
  obtain ⟨-, -, -, -, -, -, e0, e1, -⟩ := blocks_at t
  show V m c main_arg2 (((cfg0.win 2).blk t).view.emb y) = V m c main_arg2 i
  refine congrArg _ (funext fun a => Fin.ext ?_)
  match a with
  | ⟨0, _⟩ => show win0_2.index t (0 : Fin 2) * 512 + 1 * (y 0).val = (i 0).val; omega
  | ⟨1, _⟩ => show win0_2.index t (1 : Fin 2) * 1 + 1 * (y 1).val = (i 1).val; omega

/-- The bias's block at point t, entry y: channel 512·(t / 32) + y₀. -/
theorem b_block (c : Dev nD) (t : Fin cfg0.N) (y : S512.Idx) (i : S16384.Idx)
    (h0 : (i 0).val = t.val / 32 * 512 + (y 0).val) :
    iblk m c 3 t y = V m c main_arg3 i := by
  obtain ⟨-, -, -, -, -, -, -, -, e0⟩ := blocks_at t
  show V m c main_arg3 (((cfg0.win 3).blk t).view.emb y) = V m c main_arg3 i
  refine congrArg _ (funext fun a => Fin.ext ?_)
  match a with
  | ⟨0, _⟩ => show win0_3.index t (0 : Fin 1) * 512 + 1 * (y 0).val = (i 0).val; omega

/-! ## What a point writes back -/

/-- The tile point t writes back is block t of the projection of the matrix of rows. -/
theorem flushed_tile (c : Dev nD) (t : Fin cfg0.N) :
    (dats m 0 c).flushed 4 t = ((cfg0.win 4).blk t).view.read (Elt Ideal)
      (Cert.Projection.rows2 (V m c main_v0) (V m c main_arg1) (V m c main_arg2) (V m c main_arg3)) := by
  show (cfg0.win 4).cut (grid0.coords t) ((dats m 0 c).after 4 t) = _
  rw [after0_4]
  unfold out0_4
  rw [View.canon_unit_zero zero_offsets2]
  simp only [View.ld_unit_zero (S := S512x4096) zero_offsets2, View.ld_unit_zero (S := S512x1) zero_offsets2,
    View.ld_unit_zero (S := S256x4096) zero_offsets2, View.ld_unit_zero (S := S512) zero_offsets1]
  funext j
  obtain ⟨p, q, rfl⟩ : ∃ (p : Fin 256) (q : Fin 512), j = ix2 p q := ⟨j 0, j 1, eq_ix2 j⟩
  obtain ⟨o0, o1, -⟩ := blocks_at t
  have hp : p.val < 256 := p.isLt
  have hq : q.val < 512 := q.isLt
  have ht : t.val < 1024 := lt_of_lt_of_eq t.isLt N_0
  refine (Tile.tile_apply _ _ _ _ p q).trans ?_
  -- the entry of the result under entry (p, q) of the tile: row 256·(t mod 32) + p, channel 512·(t / 32) + q
  have he : ((cfg0.win 4).blk t).view.emb (ix2 p q)
      = ix2 (⟨t.val % 32 * 256 + p.val, by omega⟩ : Fin 8192) (⟨t.val / 32 * 512 + q.val, by omega⟩ : Fin 16384) :=
    funext fun a => Fin.ext (by
      match a with
      | ⟨0, _⟩ => show win0_4.index t (0 : Fin 2) * 256 + 1 * p.val = t.val % 32 * 256 + p.val; omega
      | ⟨1, _⟩ => show win0_4.index t (1 : Fin 2) * 512 + 1 * q.val = t.val / 32 * 512 + q.val; omega)
  show _ = Cert.Projection.rows2 (V m c main_v0) (V m c main_arg1) (V m c main_arg2) (V m c main_arg3)
    (((cfg0.win 4).blk t).view.emb (ix2 p q))
  rw [he]
  exact Cert.Projection.rows2_of_pieces _ _ _ _
    (fun k => iblk m c 0 t (ix2 p k)) (fun k => iblk m c 1 t (ix2 q k)) (iblk m c 2 t (ix2 q (0 : Fin 1))) (iblk m c 3 t (ix1 q))
    (⟨t.val % 32 * 256 + p.val, by omega⟩ : Fin 8192) (⟨t.val / 32 * 512 + q.val, by omega⟩ : Fin 16384)
    (fun k => x_block m c t (ix2 p k) (ix2 (⟨t.val % 32 * 256 + p.val, by omega⟩ : Fin 8192) k) rfl rfl)
    (fun k => w_block m c t (ix2 q k) (ix2 (⟨t.val / 32 * 512 + q.val, by omega⟩ : Fin 16384) k) rfl rfl)
    (s_block m c t (ix2 q (0 : Fin 1)) (ix2 (⟨t.val / 32 * 512 + q.val, by omega⟩ : Fin 16384) (0 : Fin 1)) rfl rfl)
    (b_block m c t (ix1 q) (ix1 (⟨t.val / 32 * 512 + q.val, by omega⟩ : Fin 16384)) rfl)

/-! ## The tiles cover the result -/

/-- An entry of the result is in point t's tile iff each coordinate is in the tile's range on its axis. -/
theorem mem_tile (t : Fin cfg0.N) (i : S8192x16384.Idx) :
    i ∈ ((cfg0.win 4).blk t).view.set ↔ ∀ a : Fin 2, win0_4.index t a * S256x512.size a ≤ (i a).val
      ∧ (i a).val < win0_4.index t a * S256x512.size a + S256x512.size a := by
  show i ∈ ((View.whole main_v1).slice (win0_4.rect t)).set ↔ _
  rw [View.set_slice_whole, Rect.mem_set_unit]
  exact Iff.rfl

/-- Entry (row, channel) is in the tile of the point 32·(channel / 512) + row / 256. -/
theorem tiles_cover (i : S8192x16384.Idx) :
    ∃ t : Fin cfg0.N, (cfg0.win 4).flush t = true ∧ i ∈ ((cfg0.win 4).blk t).view.set := by
  have h0 : (i 0).val < 8192 := (i 0).isLt
  have h1 : (i 1).val < 16384 := (i 1).isLt
  have hN : cfg0.N = 1024 := N_0
  obtain ⟨t, ht⟩ : ∃ t : Fin cfg0.N, t.val = (i 1).val / 512 * 32 + (i 0).val / 256 :=
    ⟨⟨(i 1).val / 512 * 32 + (i 0).val / 256, by rw [hN]; omega⟩, rfl⟩
  obtain ⟨o0, o1, -⟩ := blocks_at t
  refine ⟨t, flush0_4 t, ?_⟩
  rw [mem_tile]
  intro a
  match a with
  | ⟨0, _⟩ =>
    show win0_4.index t (0 : Fin 2) * 256 ≤ (i 0).val ∧ (i 0).val < win0_4.index t (0 : Fin 2) * 256 + 256
    omega
  | ⟨1, _⟩ =>
    show win0_4.index t (1 : Fin 2) * 512 ≤ (i 1).val ∧ (i 1).val < win0_4.index t (1 : Fin 2) * 512 + 512
    omega

/-- The result matrix after the kernel: the projection of the matrix of rows the kernel was given. -/
theorem result_matrix (c : Dev nD) :
    (dats m 0 c).arrAt 4 cfg0.N
      = Cert.Projection.rows2 (V m c main_v0) (V m c main_arg1) (V m c main_arg2) (V m c main_arg3) :=
  (dats m 0 c).arrAt_eq_of_cover 4 _ (fun t _ => flushed_tile m c t) tiles_cover

end Cert.KernelIdeal.Whole

end
-- ==== Proof.KernelRun.lean ====
/-
  The kernel program's run, with its result named.

  Around the kernel the program only rearranges rows: the [4, 2048, 4096] activations are flattened to 8192 rows
  before it, and the 8192 × 16384 result is unflattened to [4, 2048, 16384] after it.  The kernel's result matrix is
  the projection of the matrix of rows (the tiles cover it); flattening, projecting and unflattening is the
  projection of the three-axis array.  So every execution ends with the result at `rows3` of the arguments, and
  the arguments as they were.
-/
import proofs.«162065_j4492535791711_1_alg».proof.Proof.KernelArray

noncomputable section

namespace Cert.KernelIdeal.Whole

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

/-- Before the kernel: the matrix of rows it is given is the activations, flattened. -/
theorem rows_flattened (c : Dev nD) :
    (V m c main_v0 : S8192x4096.Idx → EReal)
      = shapeCast S8192x4096 (m ((c : Thread nD τ).loc main_arg0)) shapeCasts_S4x2048x4096_S8192x4096 := by
  show StableHlo.after hostOps0 (fun b => m (c, b)) (Proc.devRef .tc main_v0) = _
  after_results
  rfl

/-- After the kernel: the program's result is the kernel's result matrix, unflattened. -/
theorem result_unflattened (c : Dev nD) :
    Pipeline.afterTail₀ cfgs (dats m) 0 (V0 m) [hostOps1] c main_v2
      = shapeCast S4x2048x16384 ((dats m 0 c).arrAt 4 cfg0.N) shapeCasts_S8192x16384_S4x2048x16384 := by
  unfold Pipeline.afterTail₀
  show StableHlo.after hostOps1 _ (Proc.devRef .tc main_v2) = _
  after_results
  exact congrArg (fun v => shapeCast S4x2048x16384 v shapeCasts_S8192x16384_S4x2048x16384)
    (Pipeline.withArrays_arr spec0 launch0.win.arr_inj c _ _ 4)

/-- The program's result is the projection of the activations' rows, entry (p, q, o) by entry. -/
theorem result_rows3 (c : Dev nD) :
    Pipeline.afterTail₀ cfgs (dats m) 0 (V0 m) [hostOps1] c main_v2
      = Cert.Projection.rows3 (m ((c : Thread nD τ).loc main_arg0)) (m ((c : Thread nD τ).loc main_arg1))
          (m ((c : Thread nD τ).loc main_arg2)) (m ((c : Thread nD τ).loc main_arg3)) := by
  rw [result_unflattened, result_matrix, rows_flattened, V_main_arg1, V_main_arg2, V_main_arg3]
  exact Cert.Projection.reshape_rows2 _ _ _ _ _ _

/-- Every weakly fair execution of the kernel program terminates with the result at the projection of the arguments
    and the arguments unchanged. -/
theorem run : θ_run defs (onTc (τ := τ) (main (F := Ideal))) ⟨m, fun _ => 0, ρ⟩ fun r => ∀ c : Dev nD,
      r.2.mem ((c.tc : Thread nD τ).loc main_v2)
        = Cert.Projection.rows3 (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v2 (Pipeline.mem_restRefs_of main_v2 (by decide) (by decide))).trans (result_rows3 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Whole

end
-- ==== Proof.ReferenceValue.lean ====
/-
  The reference, entry by entry.

  The reference dequantises the whole weight (integer to float, times its row's scale spread along the features),
  contracts the activations' feature axis against the weight's, and adds the bias spread over batch and position.
  Read at entry (p, q, o) over the extended reals that is the projection of row (p, q) onto channel o:

      Σ_k x[p, q, k] · (float(Wq[o, k]) · s[o, 0])  +  b[o].
-/
import proofs.«162065_j4492535791711_1_alg».proof.Proof.Gen.ReferenceIdeal.Read
import proofs.«162065_j4492535791711_1_alg».proof.Proof.Projection

noncomputable section

namespace Cert.ReferenceIdeal.RefValue

open Cert.ReferenceIdeal Cert.ReferenceIdeal.Read Idealize.ShloMosaic Idealize.ShloMosaic.ValueIdx

/-- The reference's last stage is the projection of the three-axis array of rows. -/
theorem reference_rows3 (x : FVec Ideal S4x2048x4096 .f32) (wq : IVec S16384x4096 32) (sc : FVec Ideal S16384x1 .f32)
    (b : FVec Ideal S16384 .f32) :
    val_main_v6 (F := Ideal) x wq sc b = Cert.Projection.rows3 x wq sc b := by
  funext i
  obtain ⟨p, q, o, rfl⟩ : ∃ (p : Fin 4) (q : Fin 2048) (o : Fin 16384), i = ix3 p q o := ⟨i 0, i 1, i 2, eq_ix3 i⟩
  -- the operands' indices the stages name are the coordinates of the entry
  have e0 : ∀ k : Fin 4096, lidx_main_v3 (ix3 p q o) k = ix3 p q k := fun k => funext fun a => Fin.ext (by
    match a with | ⟨0, _⟩ => rfl | ⟨1, _⟩ => rfl | ⟨2, _⟩ => rfl)
  have e1 : ∀ k : Fin 4096, ridx_main_v3 (ix3 p q o) k = ix2 o k := fun k => funext fun a => Fin.ext (by
    match a with | ⟨0, _⟩ => rfl | ⟨1, _⟩ => rfl)
  have e2 : ∀ k : Fin 4096, idx_main_v1 (ix2 o k) = ix2 o (0 : Fin 1) := fun k => funext fun a => Fin.ext (by
    match a with | ⟨0, _⟩ => rfl | ⟨1, _⟩ => rfl)
  have e3 : idx_main_v4 (idx_main_v5 (ix3 p q o)) = ix1 o := funext fun a => Fin.ext (by
    match a with | ⟨0, _⟩ => rfl)
  rw [val_main_v6_apply, val_main_v3_apply, val_main_v5_apply, val_main_v4_apply, e3]
  refine congrArg (· + b (ix1 o)) (Finset.sum_congr rfl fun k _ => ?_)
  rw [e0, e1, val_main_v2_apply, val_main_v0_apply, val_main_v1_apply, e2]
  rfl

end Cert.ReferenceIdeal.RefValue

end
-- ==== Proof.lean ====
/-
  A quantised column-parallel projection against its plain reference, over the extended reals.

  Both programs take activations x[4, 2048, 4096], an integer weight Wq[16384, 4096] with one scale s[o, 0] per output
  channel, and a bias b[16384], and both compute, at entry (p, q, o),

      Σ_k x[p, q, k] · (float(Wq[o, k]) · s[o, 0])  +  b[o].

  The reference does it with one contraction of the whole arrays.  The kernel flattens the activations to 8192 rows,
  works tile by tile — 256 rows against 512 channels at each of 32 × 32 grid points, contracting all 4096 features
  at once into a zero accumulator — and unflattens the result.  Read exactly, narrowing the factors' float format is
  the identity, so a tile's entry is the very same sum of the very same products; the tiles cover the result matrix;
  and flattening rows before and unflattening after is the same arrangement of rows on both sides
  (row (p, q) is row 2048·p + q).  No law of the extended reals beyond this term-by-term identity is used, so the
  finiteness of the inputs is never needed.

  The three programs' runs (termination, no fault, arguments unchanged) are the generated frame runs of the two
  kernel programs and the generated run of the reference; the kernel's idealization rewrote nothing.
-/
import proofs.«162065_j4492535791711_1_alg».proof.Defs
import proofs.«162065_j4492535791711_1_alg».proof.Proof.Gen.Kernel
import proofs.«162065_j4492535791711_1_alg».proof.Proof.Gen.Kernel.Skeleton
import proofs.«162065_j4492535791711_1_alg».proof.Proof.Gen.Kernel.Launch
import proofs.«162065_j4492535791711_1_alg».proof.Proof.Gen.Kernel.Points
import proofs.«162065_j4492535791711_1_alg».proof.Proof.Gen.Kernel.Frame
import proofs.«162065_j4492535791711_1_alg».proof.Proof.Gen.KernelIdeal
import proofs.«162065_j4492535791711_1_alg».proof.Proof.Gen.KernelIdeal.Skeleton
import proofs.«162065_j4492535791711_1_alg».proof.Proof.Gen.KernelIdeal.Launch
import proofs.«162065_j4492535791711_1_alg».proof.Proof.Gen.KernelIdeal.Points
import proofs.«162065_j4492535791711_1_alg».proof.Proof.Gen.KernelIdeal.Frame
import proofs.«162065_j4492535791711_1_alg».proof.Proof.Gen.ReferenceIdeal
import proofs.«162065_j4492535791711_1_alg».proof.Proof.Gen.Pre_finite_inputs
import proofs.«162065_j4492535791711_1_alg».proof.Proof.Gen.ReferenceIdeal.Run
import proofs.«162065_j4492535791711_1_alg».proof.Proof.Gen.ReferenceIdeal.Read
import proofs.«162065_j4492535791711_1_alg».proof.Proof.KernelRun
import proofs.«162065_j4492535791711_1_alg».proof.Proof.ReferenceValue
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- So does the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation of the kernel: there is nothing to preserve. -/
theorem preserves : Cert.preserves_Kernel_KernelIdeal := trivial

/-- From memories that agree on the arguments both programs end with the projection of the activations' rows:
    the kernel program by its tiles (`Whole.run`), the reference by its stages (`reference_rows3`). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v6_eq _ _ _ _).trans (Cert.ReferenceIdeal.RefValue.reference_rows3 _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
